-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x4096 : Shape := ⟨3, ![4, 3, 4096]⟩
abbrev S4x256x4096 : Shape := ⟨3, ![4, 256, 4096]⟩
abbrev S_ : Shape := ⟨0, ![]⟩

class Facts : Prop where
  bcast_S_S4x3x4096 : S_.BroadcastsInDim S4x3x4096 (![] : Fin 0 → Fin S4x3x4096.rank)
  reducesTo_S4x3x4096_S_d0_1_2 : S4x3x4096.ReducesTo [0, 1, 2] S_
  h_S_ : 0 < S_.numel
  bcast_S_S4x256x4096 : S_.BroadcastsInDim S4x256x4096 (![] : Fin 0 → Fin S4x256x4096.rank)
  reducesTo_S4x256x4096_S_d0_1_2 : S4x256x4096.ReducesTo [0, 1, 2] S_

variable [Facts]

def fn_part1 {F : FTy → Type} [FloatOps F] (main_v13 : IVec S_ 1) (main_v16 : IVec S4x256x4096 1) : IVec S_ 1 :=
  let main_c_5 : IVec S_ 1 := constantI S_ 1 1#1
  let main_v17 : IVec S_ 1 := (fun x v => Host.reduce IntOp.andi x v reducesTo_S4x256x4096_S_d0_1_2 h_S_) main_v16 main_c_5
  let main_v18 : IVec S_ 1 := andi main_v13 main_v17
  main_v18

def fn {F : FTy → Type} [FloatOps F] (main_arg0 : FVec F S4x3x4096 .f32) (main_arg1 : FVec F S4x3x4096 .f32) (main_arg2 : FVec F S4x256x4096 .f32) (main_arg3 : FVec F S4x256x4096 .f32) : IVec S_ 1 :=
  let main_v0 : FVec F S4x3x4096 .f32 := Host.absf main_arg0
  let main_cst : FVec F S_ .f32 := constant S_ .f32 0x7F800000#32
  let main_v1 : FVec F S4x3x4096 .f32 := broadcastInDim S4x3x4096 ![] bcast_S_S4x3x4096 main_cst
  let main_v2 : IVec S4x3x4096 1 := cmpf .olt main_v0 main_v1
  let main_c : IVec S_ 1 := constantI S_ 1 1#1
  let main_v3 : IVec S_ 1 := (fun x v => Host.reduce IntOp.andi x v reducesTo_S4x3x4096_S_d0_1_2 h_S_) main_v2 main_c
  let main_v4 : FVec F S4x3x4096 .f32 := Host.absf main_arg1
  let main_cst_0 : FVec F S_ .f32 := constant S_ .f32 0x7F800000#32
  let main_v5 : FVec F S4x3x4096 .f32 := broadcastInDim S4x3x4096 ![] bcast_S_S4x3x4096 main_cst_0
  let main_v6 : IVec S4x3x4096 1 := cmpf .olt main_v4 main_v5
  let main_c_1 : IVec S_ 1 := constantI S_ 1 1#1
  let main_v7 : IVec S_ 1 := (fun x v => Host.reduce IntOp.andi x v reducesTo_S4x3x4096_S_d0_1_2 h_S_) main_v6 main_c_1
  let main_v8 : IVec S_ 1 := andi main_v3 main_v7
  let main_v9 : FVec F S4x256x4096 .f32 := Host.absf main_arg2
  let main_cst_2 : FVec F S_ .f32 := constant S_ .f32 0x7F800000#32
  let main_v10 : FVec F S4x256x4096 .f32 := broadcastInDim S4x256x4096 ![] bcast_S_S4x256x4096 main_cst_2
  let main_v11 : IVec S4x256x4096 1 := cmpf .olt main_v9 main_v10
  let main_c_3 : IVec S_ 1 := constantI S_ 1 1#1
  let main_v12 : IVec S_ 1 := (fun x v => Host.reduce IntOp.andi x v reducesTo_S4x256x4096_S_d0_1_2 h_S_) main_v11 main_c_3
  let main_v13 : IVec S_ 1 := andi main_v8 main_v12
  let main_v14 : FVec F S4x256x4096 .f32 := Host.absf main_arg3
  let main_cst_4 : FVec F S_ .f32 := constant S_ .f32 0x7F800000#32
  let main_v15 : FVec F S4x256x4096 .f32 := broadcastInDim S4x256x4096 ![] bcast_S_S4x256x4096 main_cst_4
  let main_v16 : IVec S4x256x4096 1 := cmpf .olt main_v14 main_v15
  fn_part1 (F := F) main_v13 main_v16
-- ==== Kernel.lean ====
abbrev S4x3x4096 : Shape := ⟨3, ![4, 3, 4096]⟩
abbrev S4x256x4096 : Shape := ⟨3, ![4, 256, 4096]⟩
abbrev S1x256x256 : Shape := ⟨3, ![1, 256, 256]⟩
abbrev S1x256x4096 : Shape := ⟨3, ![1, 256, 4096]⟩
abbrev S1x3x4096 : Shape := ⟨3, ![1, 3, 4096]⟩
abbrev S1x3x256 : Shape := ⟨3, ![1, 3, 256]⟩
abbrev S256x256 : Shape := ⟨2, ![256, 256]⟩
abbrev S256x4096 : Shape := ⟨2, ![256, 4096]⟩
abbrev S256 : Shape := ⟨1, ![256]⟩
abbrev S4096 : Shape := ⟨1, ![4096]⟩
abbrev S256x1 : Shape := ⟨2, ![256, 1]⟩
abbrev S1x4096 : Shape := ⟨2, ![1, 4096]⟩
abbrev S3x4096 : Shape := ⟨2, ![3, 4096]⟩
abbrev S3x256 : Shape := ⟨2, ![3, 256]⟩

abbrev nBuf : Space → Nat
  | .hbm => 5
  | .vmem => 8
  | .smem => 0
  | _ => 0

abbrev bufTy : (tb : Table) → Fin (tcTables nBuf tb) → BufTy
  | .hbm, ⟨0, _⟩ => ⟨S4x3x4096, .f32⟩
  | .hbm, ⟨1, _⟩ => ⟨S4x3x4096, .f32⟩
  | .hbm, ⟨2, _⟩ => ⟨S4x256x4096, .f32⟩
  | .hbm, ⟨3, _⟩ => ⟨S4x256x4096, .f32⟩
  | .hbm, ⟨4, _⟩ => ⟨S4x3x4096, .f32⟩
  | .local _ .vmem, ⟨0, _⟩ => ⟨S1x256x256, .f32⟩
  | .local _ .vmem, ⟨1, _⟩ => ⟨S1x256x256, .f32⟩
  | .local _ .vmem, ⟨2, _⟩ => ⟨S1x256x4096, .f32⟩
  | .local _ .vmem, ⟨3, _⟩ => ⟨S1x256x4096, .f32⟩
  | .local _ .vmem, ⟨4, _⟩ => ⟨S1x3x4096, .f32⟩
  | .local _ .vmem, ⟨5, _⟩ => ⟨S1x3x4096, .f32⟩
  | .local _ .vmem, ⟨6, _⟩ => ⟨S1x3x256, .f32⟩
  | .local _ .vmem, ⟨7, _⟩ => ⟨S1x3x256, .f32⟩
  | _, _ => ⟨S4x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  bitsLt_bf16_f32 : FTy.bits .bf16 < FTy.bits .f32
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x256_S256 : S256x256.Reduces [0] S256
  reduces_S256x4096_S4096 : S256x4096.Reduces [0] S4096
  shapeCasts_S256_S256x1 : S256.ShapeCasts S256x1
  broadcasts_S256x1_S256x4096 : S256x1.Broadcasts S256x4096
  shapeCasts_S4096_S1x4096 : S4096.ShapeCasts S1x4096
  broadcasts_S1x4096_S256x4096 : S1x4096.Broadcasts S256x4096
  reduces_S256x4096_S256 : S256x4096.Reduces [1] S256
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  shapeCasts_S3x256_S1x3x256 : S3x256.ShapeCasts S1x3x256
  dot_S256x256_S256x4096_S256x4096_0_0_1_1_n_n_wf : DotDims.WF S256x256 S256x4096 S256x4096 [0] [0] [1] [1] [] []
  dot_S3x4096_S256x4096_S3x256_1_1_0_0_n_n_wf : DotDims.WF S3x4096 S256x4096 S3x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S4x256x4096.size a
  hwx0_0 : ∀ i : grid0.Coords, EltTy.bits .f32 = 32 ∨ (Rect.block (s := S4x256x4096) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S4x256x4096.size a
  hwx0_1 : ∀ i : grid0.Coords, EltTy.bits .f32 = 32 ∨ (Rect.block (s := S4x256x4096) S1x256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x4096.size a ≤ S4x3x4096.size a
  hwx0_2 : ∀ i : grid0.Coords, EltTy.bits .f32 = 32 ∨ (Rect.block (s := S4x3x4096) S1x3x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x256.size a ≤ S4x3x4096.size a
  hwx0_3 : ∀ i : grid0.Coords, EltTy.bits .f32 = 32 ∨ (Rect.block (s := S4x3x4096) S1x3x256.size (cc0_transform_3 i) (hinb0_3 i)).WholeWords (EltTy.packing .f32)

variable [Facts₀]

def dot_S256x256_S256x4096_S256x4096_0_0_1_1_n_n : DotDims S256x256 S256x4096 S256x4096 where
  lhsContracting := [0]
  rhsContracting := [0]
  lhsNonContracting := [1]
  rhsNonContracting := [1]
  lhsBatch := []
  rhsBatch := []
  wf := dot_S256x256_S256x4096_S256x4096_0_0_1_1_n_n_wf
def dot_S3x4096_S256x4096_S3x256_1_1_0_0_n_n : DotDims S3x4096 S256x4096 S3x256 where
  lhsContracting := [1]
  rhsContracting := [1]
  lhsNonContracting := [0]
  rhsNonContracting := [0]
  lhsBatch := []
  rhsBatch := []
  wf := dot_S3x4096_S256x4096_S3x256_1_1_0_0_n_n_wf

abbrev win0_0 : Pipeline.Window sig grid0 :=
  Pipeline.Window.ofSpec (Memref.whole main_arg2) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x3x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x3x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x3x4096 : Shape := ⟨3, ![4, 3, 4096]⟩
abbrev S4x256x4096 : Shape := ⟨3, ![4, 256, 4096]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x3x4096, .f32⟩
  | .hbm, ⟨1, _⟩ => ⟨S4x3x4096, .f32⟩
  | .hbm, ⟨2, _⟩ => ⟨S4x256x4096, .f32⟩
  | .hbm, ⟨3, _⟩ => ⟨S4x256x4096, .f32⟩
  | .hbm, ⟨4, _⟩ => ⟨S4x4096x4096, .f32⟩
  | .hbm, ⟨5, _⟩ => ⟨S_, .f32⟩
  | .hbm, ⟨6, _⟩ => ⟨S4x4096x4096, .f32⟩
  | .hbm, ⟨7, _⟩ => ⟨S4x4096x4096, .f32⟩
  | .hbm, ⟨8, _⟩ => ⟨S4x256x4096, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S4x256x4096, .f32⟩
  | .hbm, ⟨13, _⟩ => ⟨S_, .f32⟩
  | .hbm, ⟨14, _⟩ => ⟨S4x4096, .f32⟩
  | .hbm, ⟨15, _⟩ => ⟨S4x1x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S4x4096x1, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S4x3x4096, .f32⟩
  | _, _ => ⟨S4x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x256x4096_S4x4096_d1 : S4x256x4096.ReducesTo [1] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  reducesTo_S4x4096x4096_S4x4096_d2 : S4x4096x4096.ReducesTo [2] S4x4096
  bcast_S_S4x4096 : S_.BroadcastsInDim S4x4096 (![] : Fin 0 → Fin S4x4096.rank)
  dot_S4x256x4096_S4x256x4096_S4x4096x4096_1_1_2_2_0_0_wf : DotDims.WF S4x256x4096 S4x256x4096 S4x4096x4096 [1] [1] [2] [2] [0] [0]
  dot_S4x3x4096_S4x4096x4096_S4x3x4096_2_2_1_1_0_0_wf : DotDims.WF S4x3x4096 S4x4096x4096 S4x3x4096 [2] [2] [1] [1] [0] [0]

variable [Facts₀]

def dot_S4x256x4096_S4x256x4096_S4x4096x4096_1_1_2_2_0_0 : DotDims S4x256x4096 S4x256x4096 S4x4096x4096 where
  lhsContracting := [1]
  rhsContracting := [1]
  lhsNonContracting := [2]
  rhsNonContracting := [2]
  lhsBatch := [0]
  rhsBatch := [0]
  wf := dot_S4x256x4096_S4x256x4096_S4x4096x4096_1_1_2_2_0_0_wf
def dot_S4x3x4096_S4x4096x4096_S4x3x4096_2_2_1_1_0_0 : DotDims S4x3x4096 S4x4096x4096 S4x3x4096 where
  lhsContracting := [2]
  rhsContracting := [2]
  lhsNonContracting := [1]
  rhsNonContracting := [1]
  lhsBatch := [0]
  rhsBatch := [0]
  wf := dot_S4x3x4096_S4x4096x4096_S4x3x4096_2_2_1_1_0_0_wf

class Facts : Prop extends Facts₀ where

variable [Facts]
-- ==== Proof.Spec.lean ====
/-
  The function both programs compute, stated once over plain index functions.

  For a batch b, a source point n and a target point m the programs form the negated squared distance of
  the two embedding columns, p(n, m) = 2·⟨a_n, b_m⟩ − |a_n|² − |b_m|², then take the softmax of row n over m,
  and weight the target coordinates with it: out(b, c, n) = Σ_m tgt(b, c, m) · softmax_m p(n, ·)(m).
  The two programs spell p differently (2·d − x − y against −x − (−2·d) − y); the two spellings agree on
  every extended real, because they differ only by commuting sums and by −((−2)·d) = 2·d.
-/
import Idealize.ShloMosaic.PureOps.Ideal
import Idealize.ShloMosaic.PureOps.Ideal.Laws
import Idealize.ShloMosaic.Lib.ValueIdx

noncomputable section

namespace Cert.Corr

open Idealize.ShloMosaic Idealize.ShloMosaic.ValueIdx

/-- The array shapes of the claim. -/
abbrev SPts : Shape := ⟨3, ![4, 3, 4096]⟩
abbrev SEmb : Shape := ⟨3, ![4, 256, 4096]⟩

/-- The float literals the programs use, as the extended reals their patterns denote. -/
theorem ofBits_two : Ideal.ofBits .f32 0x40000000#32 = ((2 : ℝ) : EReal) := by
  simp [Ideal.ofBits, Ideal.ieee, -EReal.coe_mul]; norm_num
theorem ofBits_neg_two : Ideal.ofBits .f32 0xC0000000#32 = ((-2 : ℝ) : EReal) := by
  simp [Ideal.ofBits, Ideal.ieee, -EReal.coe_mul]; norm_num
theorem ofBits_neg_two_eq : Ideal.ofBits .f32 0xC0000000#32 = -Ideal.ofBits .f32 0x40000000#32 := by
  rw [ofBits_two, ofBits_neg_two, ← EReal.coe_neg]

/-- The squared length of an embedding column. -/
def sq (a : Fin 256 → EReal) : EReal := ∑ d : Fin 256, a d * a d
/-- The inner product of two embedding columns. -/
def dotp (a b : Fin 256 → EReal) : EReal := ∑ d : Fin 256, a d * b d

/-- The negated squared distance, as 2·⟨a,b⟩ − |a|² − |b|². -/
def negDist (a b : Fin 256 → EReal) : EReal :=
  Ideal.ofBits .f32 0x40000000#32 * dotp a b - sq a - sq b
/-- The same, as −|a|² − (−2)·⟨a,b⟩ − |b|². -/
def negDist' (a b : Fin 256 → EReal) : EReal :=
  -(sq a) - Ideal.ofBits .f32 0xC0000000#32 * dotp a b - sq b

/-- The two spellings are one extended real: subtraction is adding the negative, (−2)·d negated is 2·d, and
    addition commutes; no finiteness is needed. -/
theorem negDist'_eq (a b : Fin 256 → EReal) : negDist' a b = negDist a b := by
  unfold negDist' negDist
  rw [ofBits_neg_two_eq, neg_mul, sub_eq_add_neg, sub_eq_add_neg, sub_eq_add_neg, sub_eq_add_neg, neg_neg,
    add_comm (-(sq a))]

/-- The maximum of a row, folded from −∞ (and once more against −∞, as both programs do). -/
def rowMax (p : Fin 4096 → EReal) : EReal :=
  max (Ideal.ofBits .f32 0xFF800000#32) ((Finset.univ : Finset (Fin 4096)).fold max (Ideal.ofBits .f32 0xFF800000#32) p)
/-- The shifted exponential of a row's entry. -/
def rowExp (p : Fin 4096 → EReal) (m : Fin 4096) : EReal := Ideal.exp (p m - rowMax p)
/-- The softmax denominator of a row. -/
def rowSum (p : Fin 4096 → EReal) : EReal := ∑ m : Fin 4096, rowExp p m
/-- A row's softmax weights applied to a vector of target coordinates. -/
def softmaxDot (t p : Fin 4096 → EReal) : EReal := ∑ m : Fin 4096, t m * Ideal.div (rowExp p m) (rowSum p)

/-- The result array as one function of the three arrays the programs read. -/
def G (tgt : SPts.Idx → EReal) (se te : SEmb.Idx → EReal) : SPts.Idx → EReal := fun i =>
  softmaxDot (fun m => tgt (ix3 (i 0 : Fin 4) (i 1 : Fin 3) m))
    (fun m => negDist (fun d => se (ix3 (i 0 : Fin 4) d (i 2 : Fin 4096))) (fun d => te (ix3 (i 0 : Fin 4) d m)))

end Cert.Corr

end
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.ScoresValue.lean ====
/-
  The softmax weights of one block, entry by entry.

  The block's scores are p(n, m) = 2·⟨a_n, b_m⟩ − |a_n|² − |b_m|², with a_n and b_m columns of the two loaded blocks
  (the inner product is the contraction over the embedding coordinate, the squared lengths are column sums of
  squares spread back over the matrix); the weights are, row by row, exp(p − max) divided by the row's sum of
  these exponentials. Each operation is read at explicit coordinates; the two halves (scores, softmax of a matrix
  whose row is known) are independent.
-/
import proofs.«131171_j28613072126431_1_alg».proof.Proof.Spec
import proofs.«131171_j28613072126431_1_alg».proof.Proof.Gen.KernelIdeal.Skeleton
import proofs.«131171_j28613072126431_1_alg».proof.Proof.LibLayoutRead
import Idealize.ShloMosaic.Lib.Pipeline.Value
import Idealize.ShloMosaic.Lib.ValueLayout
import Idealize.ShloMosaic.PureOps.Ideal.Laws

noncomputable section

namespace Cert.Corr.Block

open Cert.KernelIdeal Cert.KernelIdeal.Gen Idealize.ShloMosaic Idealize.ShloMosaic.ValueIdx Cert.Corr

/-- The negated squared distances of row n of a block, as a function of the target point. -/
def blockRow (x0 : Vec Ideal S1x256x256 .f32) (x1 : Vec Ideal S1x256x4096 .f32) (n : Fin 256) : Fin 4096 → EReal :=
  fun m => negDist (fun d => x0 (ix3 (0 : Fin 1) d n)) (fun d => x1 (ix3 (0 : Fin 1) d m))

/-! ## Reductions of a matrix read at explicit coordinates -/

/-- The sum of a matrix over its rows, at column c, is the sum of that column. -/
theorem colsum {a b : ℕ} (src : FVec Ideal ⟨2, ![a, b]⟩ .f32) (h : (⟨2, ![a, b]⟩ : Shape).Reduces [0] ⟨1, ![b]⟩) (c : Fin b) :
    multiReduction .add [0] ⟨1, ![b]⟩ src 0x00000000#32 h (.inl rfl) rfl (ix1 c) = ∑ k : Fin a, src (ix2 k c) :=
  (Ideal.multiReduction_add_single src 0x00000000#32 h (.inl rfl) rfl (ix1 c)).trans
    (Finset.sum_congr rfl fun k _ => congrArg src (funext fun ax => by
      match ax with
      | ⟨0, _⟩ => rfl
      | ⟨1, _⟩ => rfl))

/-- The maximum of a matrix over its lanes, at row r, is the fold of max over that row from −∞. -/
theorem rowmax {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg (fun f => (Finset.univ : Finset (Fin b)).fold max (Ideal.ofBits .f32 0xFF800000#32) f)
      (funext fun k => congrArg src (funext fun ax => by
        match ax with
        | ⟨0, _⟩ => rfl
        | ⟨1, _⟩ => rfl)))

/-! ## The softmax of the rows of a matrix of scores -/

/-- The exponentials of a matrix of scores, each row shifted by its maximum (folded from −∞, and once more against −∞). -/
def shifted (q : FVec Ideal S256x4096 .f32) : FVec Ideal S256x4096 .f32 :=
  exp (subf q (broadcastTo S256x4096 (shapeCast S256x1
    (maximumf (broadcast S256 (Scalar.ofBits (F := Ideal) .f32 0xFF800000#32))
      (multiReduction (F := Ideal) .maximumf [1] S256 q 0xFF800000#32 reduces_S256x4096_S256 (.inl rfl) rfl))
    shapeCasts_S256_S256x1) broadcasts_S256x1_S256x4096))

/-- The softmax weights: each shifted exponential divided by the sum of its row. -/
def weights (q : FVec Ideal S256x4096 .f32) : FVec Ideal S256x4096 .f32 :=
  divf (shifted q) (broadcastTo S256x4096 (shapeCast S256x1
    (multiReduction (F := Ideal) .add [1] S256 (shifted q) 0x00000000#32 reduces_S256x4096_S256 (.inl rfl) rfl)
    shapeCasts_S256_S256x1) broadcasts_S256x1_S256x4096)

/-- Entry (n, m) of the shifted exponentials of a matrix whose row n is the function p. -/
theorem shifted_apply (q : FVec Ideal S256x4096 .f32) (n : Fin 256) (p : Fin 4096 → EReal)
    (hq : ∀ k : Fin 4096, q (ix2 n k) = p k) (m : Fin 4096) : shifted q (ix2 n m) = rowExp p m := by
  unfold shifted
  show Ideal.exp (q (ix2 n m) - _) = _
  rw [Cert.LayoutRead.bcast_col, Cert.LayoutRead.cast_col, maximumf_apply, broadcast_apply, rowmax, hq m]
  have hp : (fun k : Fin 4096 => q (ix2 n k)) = p := funext hq
  rw [hp]
  rfl

/-- Entry (n, m) of the softmax weights of a matrix whose row n is the function p. -/
theorem weights_apply (q : FVec Ideal S256x4096 .f32) (n : Fin 256) (p : Fin 4096 → EReal)
    (hq : ∀ k : Fin 4096, q (ix2 n k) = p k) (m : Fin 4096) :
    weights q (ix2 n m) = Ideal.div (rowExp p m) (rowSum p) := by
  unfold weights
  rw [divf_apply, Cert.LayoutRead.bcast_col, Cert.LayoutRead.cast_col, Cert.LayoutRead.rowsum, shifted_apply q n p hq m]
  refine congrArg (Ideal.div (rowExp p m)) ?_
  exact Finset.sum_congr rfl fun k _ => shifted_apply q n p hq k

/-! ## The scores before the softmax -/

/-- The left operand of the contraction at output (·) and contraction position q: its lane is the output's row. -/
theorem gram_lhs_1 (i : S256x4096.Idx) (q : dot_S256x256_S256x4096_S256x4096_0_0_1_1_n_n.contr.Idx) :
    (dot_S256x256_S256x4096_S256x4096_0_0_1_1_n_n.lhsIdx i q 1).val = (i 0).val := by
  unfold DotDims.lhsIdx
  rw [dif_neg (show ¬(1 : Fin S256x256.rank) ∈ dot_S256x256_S256x4096_S256x4096_0_0_1_1_n_n.lhsBatch by decide),
    dif_pos (show (1 : Fin S256x256.rank) ∈ dot_S256x256_S256x4096_S256x4096_0_0_1_1_n_n.lhsNonContracting by decide)]
  rfl

/-- The right operand's lane is the output's lane. -/
theorem gram_rhs_1 (i : S256x4096.Idx) (q : dot_S256x256_S256x4096_S256x4096_0_0_1_1_n_n.contr.Idx) :
    (dot_S256x256_S256x4096_S256x4096_0_0_1_1_n_n.rhsIdx i q 1).val = (i 1).val := by
  unfold DotDims.rhsIdx
  rw [dif_neg (show ¬(1 : Fin S256x4096.rank) ∈ dot_S256x256_S256x4096_S256x4096_0_0_1_1_n_n.rhsBatch by decide),
    dif_pos (show (1 : Fin S256x4096.rank) ∈ dot_S256x256_S256x4096_S256x4096_0_0_1_1_n_n.rhsNonContracting by decide)]
  rfl

/-- The product of the two blocks contracted over their embedding coordinate (axis 0 of both), into the zero
    accumulator, at (n, m): the inner product of column n of the one with column m of the other. -/
theorem gram_apply (l : FVec Ideal S256x256 .bf16) (r : FVec Ideal S256x4096 .bf16) (n : Fin 256) (m : Fin 4096) :
    matmul dot_S256x256_S256x4096_S256x4096_0_0_1_1_n_n none l r (constant (F := Ideal) S256x4096 .f32 0x00000000#32) (ix2 n m)
      = ∑ d : Fin 256, l (ix2 d n) * r (ix2 d m) := by
  simp only [matmul]
  rw [Ideal.matmul_constant_zero_apply,
    ← Equiv.sum_comp (contrEquiv1 dot_S256x256_S256x4096_S256x4096_0_0_1_1_n_n 256 rfl rfl).symm]
  refine Finset.sum_congr rfl fun k _ => ?_
  have hk := contrEquiv1_symm_val dot_S256x256_S256x4096_S256x4096_0_0_1_1_n_n 256 rfl rfl k
  have el : dot_S256x256_S256x4096_S256x4096_0_0_1_1_n_n.lhsIdx (ix2 n m)
      ((contrEquiv1 dot_S256x256_S256x4096_S256x4096_0_0_1_1_n_n 256 rfl rfl).symm k) = ix2 k n :=
    funext fun a => Fin.ext (by
      match a with
      | ⟨0, _⟩ => exact (dot_S256x256_S256x4096_S256x4096_0_0_1_1_n_n.lhsIdx_val_of_single rfl _ _).trans hk
      | ⟨1, _⟩ => exact gram_lhs_1 _ _)
  have er : dot_S256x256_S256x4096_S256x4096_0_0_1_1_n_n.rhsIdx (ix2 n m)
      ((contrEquiv1 dot_S256x256_S256x4096_S256x4096_0_0_1_1_n_n 256 rfl rfl).symm k) = ix2 k m :=
    funext fun a => Fin.ext (by
      match a with
      | ⟨0, _⟩ => exact (dot_S256x256_S256x4096_S256x4096_0_0_1_1_n_n.rhsIdx_val_of_single rfl _ _).trans hk
      | ⟨1, _⟩ => exact gram_rhs_1 _ _)
  rw [el, er]

/-- The matrix of scores before the softmax: twice the contraction of the two blocks, less the column sums of the
    squares of the first (spread along the rows) and of the second (spread along the lanes). -/
def pre (x0 : Vec Ideal S1x256x256 .f32) (x1 : Vec Ideal S1x256x4096 .f32) : FVec Ideal S256x4096 .f32 :=
  subf (subf
      (mulf (broadcast S256x4096 (Scalar.ofBits (F := Ideal) .f32 0x40000000#32))
        (matmul dot_S256x256_S256x4096_S256x4096_0_0_1_1_n_n none
          (truncf .bf16 (shapeCast S256x256 x0 shapeCasts_S1x256x256_S256x256) bitsLt_bf16_f32)
          (truncf .bf16 (shapeCast S256x4096 x1 shapeCasts_S1x256x4096_S256x4096) bitsLt_bf16_f32)
          (constant (F := Ideal) S256x4096 .f32 0x00000000#32)))
      (broadcastTo S256x4096 (shapeCast S256x1
        (multiReduction (F := Ideal) .add [0] S256
          (mulf (shapeCast S256x256 x0 shapeCasts_S1x256x256_S256x256) (shapeCast S256x256 x0 shapeCasts_S1x256x256_S256x256))
          0x00000000#32 reduces_S256x256_S256 (.inl rfl) rfl)
        shapeCasts_S256_S256x1) broadcasts_S256x1_S256x4096))
    (broadcastTo S256x4096 (shapeCast S1x4096
      (multiReduction (F := Ideal) .add [0] S4096
        (mulf (shapeCast S256x4096 x1 shapeCasts_S1x256x4096_S256x4096) (shapeCast S256x4096 x1 shapeCasts_S1x256x4096_S256x4096))
        0x00000000#32 reduces_S256x4096_S4096 (.inl rfl) rfl)
      shapeCasts_S4096_S1x4096) broadcasts_S1x4096_S256x4096)

/-- Entry (n, m) of the scores is the negated squared distance of column n of the first block and column m of the second. -/
theorem pre_apply (x0 : Vec Ideal S1x256x256 .f32) (x1 : Vec Ideal S1x256x4096 .f32) (n : Fin 256) (m : Fin 4096) :
    pre x0 x1 (ix2 n m) = blockRow x0 x1 n m := by
  unfold pre
  rw [subf_apply, subf_apply, mulf_apply, broadcast_apply, gram_apply,
    Cert.LayoutRead.bcast_col, Cert.LayoutRead.cast_col, colsum,
    broadcastTo_1b_ab_apply, shapeCast_a_1a_apply, colsum]
  simp only [mulf_apply, truncf_apply, shapeCast_1ab_ab_apply]
  rfl

/-- The block's softmax weights are the softmax of its scores. -/
theorem pay2_eq (x0 : Vec Ideal S1x256x256 .f32) (x1 : Vec Ideal S1x256x4096 .f32) :
    k0_pay2 (F := Ideal) x0 x1 x0 x1 = weights (pre x0 x1) := rfl

/-- Entry (n, m) of the block's softmax weights. -/
theorem scores_apply (x0 : Vec Ideal S1x256x256 .f32) (x1 : Vec Ideal S1x256x4096 .f32) (n : Fin 256) (m : Fin 4096) :
    k0_pay2 (F := Ideal) x0 x1 x0 x1 (ix2 n m)
      = Ideal.div (rowExp (blockRow x0 x1 n) m) (rowSum (blockRow x0 x1 n)) := by
  rw [pay2_eq]
  exact weights_apply (pre x0 x1) n (blockRow x0 x1 n) (fun k => pre_apply x0 x1 n k) m

end Cert.Corr.Block

end
-- ==== Proof.BlockValue.lean ====
/-
  One block of the kernel's result. The body's last contraction pairs the three rows of target coordinates with the
  256 rows of softmax weights along the 4096 target points, so entry (c, n) of the stored block is
  Σ_m tgt(c, m) · weight(n, m); with the weights read entry by entry this is the specification's softmax-weighted sum
  for the block's row n.
-/
import proofs.«131171_j28613072126431_1_alg».proof.Proof.Spec
import proofs.«131171_j28613072126431_1_alg».proof.Proof.ScoresValue

noncomputable section

namespace Cert.Corr.Block

open Cert.KernelIdeal Cert.KernelIdeal.Gen Idealize.ShloMosaic Idealize.ShloMosaic.ValueIdx Cert.Corr

/-! ## The operand indices of the last contraction

The contraction pairs a [3, 4096] array with a [256, 4096] array along axis 1 of both. At the result index (c, n) and
contraction coordinate m the left operand is read at (c, m) and the right operand at (n, m). -/

/-- The left operand's row is the result's row. -/
theorem lhs_coord0 (j : S3x256.Idx) (q : dot_S3x4096_S256x4096_S3x256_1_1_0_0_n_n.contr.Idx) :
    (dot_S3x4096_S256x4096_S3x256_1_1_0_0_n_n.lhsIdx j q 0).val = (j 0).val := by
  unfold DotDims.lhsIdx
  rw [dif_neg (show ¬(0 : Fin S3x4096.rank) ∈ dot_S3x4096_S256x4096_S3x256_1_1_0_0_n_n.lhsBatch by decide),
    dif_pos (show (0 : Fin S3x4096.rank) ∈ dot_S3x4096_S256x4096_S3x256_1_1_0_0_n_n.lhsNonContracting by decide)]
  rfl

/-- The left operand's column is the contraction coordinate. -/
theorem lhs_coord1 (j : S3x256.Idx) (q : dot_S3x4096_S256x4096_S3x256_1_1_0_0_n_n.contr.Idx) :
    (dot_S3x4096_S256x4096_S3x256_1_1_0_0_n_n.lhsIdx j q 1).val = (q ⟨0, by decide⟩).val :=
  dot_S3x4096_S256x4096_S3x256_1_1_0_0_n_n.lhsIdx_val_of_single rfl j q

/-- The right operand's row is the result's column. -/
theorem rhs_coord0 (j : S3x256.Idx) (q : dot_S3x4096_S256x4096_S3x256_1_1_0_0_n_n.contr.Idx) :
    (dot_S3x4096_S256x4096_S3x256_1_1_0_0_n_n.rhsIdx j q 0).val = (j 1).val := by
  unfold DotDims.rhsIdx
  rw [dif_neg (show ¬(0 : Fin S256x4096.rank) ∈ dot_S3x4096_S256x4096_S3x256_1_1_0_0_n_n.rhsBatch by decide),
    dif_pos (show (0 : Fin S256x4096.rank) ∈ dot_S3x4096_S256x4096_S3x256_1_1_0_0_n_n.rhsNonContracting by decide)]
  rfl

/-- The right operand's column is the contraction coordinate. -/
theorem rhs_coord1 (j : S3x256.Idx) (q : dot_S3x4096_S256x4096_S3x256_1_1_0_0_n_n.contr.Idx) :
    (dot_S3x4096_S256x4096_S3x256_1_1_0_0_n_n.rhsIdx j q 1).val = (q ⟨0, by decide⟩).val :=
  dot_S3x4096_S256x4096_S3x256_1_1_0_0_n_n.rhsIdx_val_of_single rfl j q

/-- The contraction into the zero accumulator, read at (c, n): the sum over m of left (c, m) times right (n, m). -/
theorem contraction_apply (l : FVec Ideal S3x4096 .bf16) (r : FVec Ideal S256x4096 .bf16) (c : Fin 3) (n : Fin 256) :
    matmul dot_S3x4096_S256x4096_S3x256_1_1_0_0_n_n none l r (constant (F := Ideal) S3x256 .f32 0x00000000#32) (ix2 c n)
      = ∑ m : Fin 4096, l (ix2 c m) * r (ix2 n m) := by
  unfold matmul
  rw [Ideal.matmul_constant_zero_apply,
    ← Equiv.sum_comp (ValueIdx.contrEquiv1 dot_S3x4096_S256x4096_S3x256_1_1_0_0_n_n 4096 rfl rfl).symm]
  refine Finset.sum_congr rfl fun m _ => ?_
  have hm := ValueIdx.contrEquiv1_symm_val dot_S3x4096_S256x4096_S3x256_1_1_0_0_n_n 4096 rfl rfl m
  have el : dot_S3x4096_S256x4096_S3x256_1_1_0_0_n_n.lhsIdx (ix2 c n)
      ((ValueIdx.contrEquiv1 dot_S3x4096_S256x4096_S3x256_1_1_0_0_n_n 4096 rfl rfl).symm m) = ix2 c m :=
    funext fun a => Fin.ext (by
      match a with
      | ⟨0, _⟩ => exact lhs_coord0 _ _
      | ⟨1, _⟩ => exact (lhs_coord1 _ _).trans hm)
  have er : dot_S3x4096_S256x4096_S3x256_1_1_0_0_n_n.rhsIdx (ix2 c n)
      ((ValueIdx.contrEquiv1 dot_S3x4096_S256x4096_S3x256_1_1_0_0_n_n 4096 rfl rfl).symm m) = ix2 n m :=
    funext fun a => Fin.ext (by
      match a with
      | ⟨0, _⟩ => exact rhs_coord0 _ _
      | ⟨1, _⟩ => exact (rhs_coord1 _ _).trans hm)
  rw [el, er]

/-! ## The stored value over arbitrary weights -/

/-- Narrowing to the 16-bit format is the identity on extended reals, the cast to [1, 3, 256] only adds a unit axis:
    entry (0, c, n) of the stored value is the sum over m of targets (c, m) times weights (n, m). -/
theorem pay1_apply (w : FVec Ideal S256x4096 .f32) (t : FVec Ideal S3x4096 .f32) (c : Fin 3) (n : Fin 256) :
    k0_pay1 (F := Ideal) w t (ix3 (0 : Fin 1) c n) = ∑ m : Fin 4096, t (ix2 c m) * w (ix2 n m) := by
  unfold k0_pay1
  rw [shapeCast_ab_1ab_apply, contraction_apply]
  rfl

/-- The target block with its unit axis dropped, read at (c, m). -/
theorem pay3_apply (x2 : Vec Ideal S1x3x4096 .f32) (c : Fin 3) (m : Fin 4096) :
    k0_pay3 (F := Ideal) x2 (ix2 c m) = x2 (ix3 (0 : Fin 1) c m) := by
  unfold k0_pay3
  exact shapeCast_1ab_ab_apply _ _ c m

/-- Entry (0, c, n) of what the body stores, from the three loaded blocks. -/
theorem block_apply (x0 : Vec Ideal S1x256x256 .f32) (x1 : Vec Ideal S1x256x4096 .f32) (x2 : Vec Ideal S1x3x4096 .f32)
    (c : Fin 3) (n : Fin 256) :
    k0_pay1 (F := Ideal) (k0_pay2 x0 x1 x0 x1) (k0_pay3 x2) (ix3 (0 : Fin 1) c n)
      = softmaxDot (fun m => x2 (ix3 (0 : Fin 1) c m)) (blockRow x0 x1 n) := by
  rw [pay1_apply]
  unfold softmaxDot
  refine Finset.sum_congr rfl fun m _ => ?_
  rw [pay3_apply, scores_apply]

end Cert.Corr.Block

end
-- ==== Proof.KernelValue.lean ====
/-
  From blocks to the whole array, for the idealized kernel.

  Grid point t = (b, k) of the 4 × 16 grid reads block (b, 0, k) of the source embeddings (256 coordinates by 256
  source points), block (b, 0, 0) of the target embeddings and of the target coordinates (all 4096 target points), and
  writes block (b, 0, k) of the result (3 coordinates by 256 source points). Entry (c, n) of what it writes is the
  softmax-weighted sum of the specification for batch b and source point 256·k + n, so every written block is the
  restriction of the one whole-array function `G`; the 64 blocks tile the result array, hence the array ends at `G`.
-/
import proofs.«131171_j28613072126431_1_alg».proof.Proof.Gen.KernelIdeal.Value
import proofs.«131171_j28613072126431_1_alg».proof.Proof.BlockValue
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Corr.Kern

open Cert.KernelIdeal Cert.KernelIdeal.Gen Cert.KernelIdeal.Value Idealize.ShloMosaic.ValueIdx Cert.Corr Cert.Corr.Block

variable (m : (ℓ : Loc nD τ sig) → Buf (Elt Ideal) ℓ) (ρ : Dev nD → PrngReg)

theorem hz3 : (![0, 0, 0] : Fin 3 → Nat) = fun _ => 0 := funext fun a => by fin_cases a <;> rfl

/-- The index maps over the grid: every input block sits in the batch of the output block, the source-embedding block
    moves with the output block along the points, the two target blocks are the whole batch slice. -/
theorem idx_facts : ∀ t : Fin cfg0.N,
    win0_0.index t (0 : Fin 3) = win0_3.index t (0 : Fin 3) ∧ win0_0.index t (1 : Fin 3) = 0
    ∧ win0_0.index t (2 : Fin 3) = win0_3.index t (2 : Fin 3)
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 3 ∧ win0_3.index t (1 : Fin 3) = 0 ∧ win0_3.index t (2 : Fin 3) ≤ 15 :=
  (by decide +kernel : ∀ t : Fin grid0.N, _)

/-- Every (batch, tile) pair is some grid point's output block. -/
theorem idx_onto : ∀ (q0 : Fin 4) (q2 : Fin 16), ∃ t : Fin cfg0.N, win0_3.index t = ![q0.val, 0, q2.val] :=
  (by decide +kernel : ∀ (q0 : Fin 4) (q2 : Fin 16), ∃ t : Fin grid0.N, win0_3.index t = ![q0.val, 0, q2.val])

/-- Two functions on a [1, 3, 256] block agree when they agree at every (0, c, n). -/
theorem ext_blk {X Y : S1x3x256.Idx → EReal}
    (h : ∀ (c : Fin 3) (n : Fin 256), X (ix3 (0 : Fin 1) c n) = Y (ix3 (0 : Fin 1) c n)) : X = Y := by
  funext j
  obtain ⟨u, cc, n, rfl⟩ : ∃ (u : Fin 1) (cc : Fin 3) (n : Fin 256), j = ix3 u cc n := ⟨j 0, j 1, j 2, eq_ix3 j⟩
  obtain rfl : u = 0 := Subsingleton.elim _ _
  exact h cc n

/-- Where the output block's entry y lies in the result array. -/
theorem emb3 (t : Fin cfg0.N) (y : S1x3x256.Idx) :
    ((((cfg0.win 3).blk t).view.emb y) 0).val = win0_3.index t (0 : Fin 3)
    ∧ ((((cfg0.win 3).blk t).view.emb y) 1).val = (y 1).val
    ∧ ((((cfg0.win 3).blk t).view.emb y) 2).val = win0_3.index t (2 : Fin 3) * 256 + (y 2).val := by
  obtain ⟨-, -, -, -, -, -, -, -, -, -, e1, -⟩ := idx_facts t
  have h0 : (y 0).val < 1 := (y 0).isLt
  refine ⟨?_, ?_, ?_⟩
  · show win0_3.index t (0 : Fin 3) * 1 + 1 * (y 0).val = _; omega
  · show win0_3.index t (1 : Fin 3) * 3 + 1 * (y 1).val = _; omega
  · show win0_3.index t (2 : Fin 3) * 256 + 1 * (y 2).val = _; omega

/-- The source-embedding block at point t, entry (0, d, n), is the array at (batch, d, 256·tile + n). -/
theorem iblk0_apply (c : Dev nD) (t : Fin cfg0.N) (x : S1x256x256.Idx) (k : S4x256x4096.Idx)
    (hk0 : (k 0).val = win0_3.index t (0 : Fin 3)) (hk1 : (k 1).val = (x 1).val)
    (hk2 : (k 2).val = win0_3.index t (2 : Fin 3) * 256 + (x 2).val) :
    (iblk m c 0 t : Vec Ideal S1x256x256 .f32) x = (V m c main_arg2 : S4x256x4096.Idx → EReal) k := by
  obtain ⟨e0, e1, e2, -⟩ := idx_facts t
  have h0 : (x 0).val < 1 := (x 0).isLt
  unfold iblk
  rw [View.read_apply]
  show V m c main_arg2 _ = V m c main_arg2 _
  refine congrArg _ ?_
  funext a
  apply Fin.ext
  match a with
  | ⟨0, _⟩ => show win0_0.index t (0 : Fin 3) * 1 + 1 * (x 0).val = (k 0).val; omega
  | ⟨1, _⟩ => show win0_0.index t (1 : Fin 3) * 256 + 1 * (x 1).val = (k 1).val; omega
  | ⟨2, _⟩ => show win0_0.index t (2 : Fin 3) * 256 + 1 * (x 2).val = (k 2).val; omega

/-- The target-embedding block at point t, entry (0, d, m), is the array at (batch, d, m). -/
theorem iblk1_apply (c : Dev nD) (t : Fin cfg0.N) (x : S1x256x4096.Idx) (k : S4x256x4096.Idx)
    (hk0 : (k 0).val = win0_3.index t (0 : Fin 3)) (hk1 : (k 1).val = (x 1).val) (hk2 : (k 2).val = (x 2).val) :
    (iblk m c 1 t : Vec Ideal S1x256x4096 .f32) x = (V m c main_arg3 : S4x256x4096.Idx → EReal) k := by
  obtain ⟨-, -, -, e0, e1, e2, -⟩ := idx_facts t
  have h0 : (x 0).val < 1 := (x 0).isLt
  unfold iblk
  rw [View.read_apply]
  show V m c main_arg3 _ = V m c main_arg3 _
  refine congrArg _ ?_
  funext a
  apply Fin.ext
  match a with
  | ⟨0, _⟩ => show win0_1.index t (0 : Fin 3) * 1 + 1 * (x 0).val = (k 0).val; omega
  | ⟨1, _⟩ => show win0_1.index t (1 : Fin 3) * 256 + 1 * (x 1).val = (k 1).val; omega
  | ⟨2, _⟩ => show win0_1.index t (2 : Fin 3) * 4096 + 1 * (x 2).val = (k 2).val; omega

/-- The target-coordinate block at point t, entry (0, c, m), is the array at (batch, c, m). -/
theorem iblk2_apply (c : Dev nD) (t : Fin cfg0.N) (x : S1x3x4096.Idx) (k : S4x3x4096.Idx)
    (hk0 : (k 0).val = win0_3.index t (0 : Fin 3)) (hk1 : (k 1).val = (x 1).val) (hk2 : (k 2).val = (x 2).val) :
    (iblk m c 2 t : Vec Ideal S1x3x4096 .f32) x = (V m c main_arg1 : S4x3x4096.Idx → EReal) k := by
  obtain ⟨-, -, -, -, -, -, e0, e1, e2, -⟩ := idx_facts t
  have h0 : (x 0).val < 1 := (x 0).isLt
  unfold iblk
  rw [View.read_apply]
  show V m c main_arg1 _ = V m c main_arg1 _
  refine congrArg _ ?_
  funext a
  apply Fin.ext
  match a with
  | ⟨0, _⟩ => show win0_2.index t (0 : Fin 3) * 1 + 1 * (x 0).val = (k 0).val; omega
  | ⟨1, _⟩ => show win0_2.index t (1 : Fin 3) * 3 + 1 * (x 1).val = (k 1).val; omega
  | ⟨2, _⟩ => show win0_2.index t (2 : Fin 3) * 4096 + 1 * (x 2).val = (k 2).val; omega

/-- What point t writes back is block t of the specification of the three arrays as the region finds them. -/
theorem flushed_eq (c : Dev nD) (t : Fin cfg0.N) :
    (dats m 0 c).flushed 3 t
      = ((cfg0.win 3).blk t).view.read (Elt Ideal) (G (V m c main_arg1) (V m c main_arg2) (V m c main_arg3)) := by
  rw [flushed3]
  unfold out0_3
  rw [View.canon_unit_zero hz3]
  simp only [View.ld_unit_zero (S := S1x256x256) hz3, View.ld_unit_zero (S := S1x256x4096) hz3,
    View.ld_unit_zero (S := S1x3x4096) hz3]
  show (k0_pay1 (k0_pay2 (iblk m c 0 t) (iblk m c 1 t) (iblk m c 0 t) (iblk m c 1 t)) (k0_pay3 (iblk m c 2 t))
      : S1x3x256.Idx → EReal)
    = fun y => G (V m c main_arg1) (V m c main_arg2) (V m c main_arg3) (((cfg0.win 3).blk t).view.emb y)
  refine ext_blk fun cc n => ?_
  refine (block_apply (iblk m c 0 t) (iblk m c 1 t) (iblk m c 2 t) cc n).trans ?_
  obtain ⟨p0, p1, p2⟩ := emb3 t (ix3 (0 : Fin 1) cc n)
  show softmaxDot _ _ = softmaxDot _ _
  refine congrArg₂ softmaxDot (funext fun m' => ?_) (funext fun m' => ?_)
  · exact iblk2_apply m c t _ _ p0 p1 rfl
  · show negDist _ _ = negDist _ _
    refine congrArg₂ negDist (funext fun d => ?_) (funext fun d => ?_)
    · exact iblk0_apply m c t _ _ p0 rfl p2
    · exact iblk1_apply m c t _ _ p0 rfl rfl

/-- An index of the result array is in point t's block iff each coordinate is in the block's range on its axis. -/
theorem mem_blk (t : Fin cfg0.N) (i : S4x3x4096.Idx) :
    i ∈ ((cfg0.win 3).blk t).view.set
      ↔ ∀ a : Fin 3, win0_3.index t a * S1x3x256.size a ≤ (i a).val ∧ (i a).val < win0_3.index t a * S1x3x256.size a + S1x3x256.size a := by
  show i ∈ ((View.whole main_v0).slice (win0_3.rect t)).set ↔ _
  rw [View.set_slice_whole, Rect.mem_set_unit]
  exact Iff.rfl

/-- The 64 output blocks tile the result array. -/
theorem cover (i : S4x3x4096.Idx) :
    ∃ t : Fin cfg0.N, (cfg0.win 3).flush t = true ∧ i ∈ ((cfg0.win 3).blk t).view.set := by
  have hi0 : (i 0).val < 4 := (i 0).isLt
  have hi1 : (i 1).val < 3 := (i 1).isLt
  have hi2 : (i 2).val < 4096 := (i 2).isLt
  obtain ⟨t, ht⟩ := idx_onto ⟨(i 0).val, hi0⟩ ⟨(i 2).val / 256, by omega⟩
  have q0 : win0_3.index t (0 : Fin 3) = (i 0).val := congrFun ht 0
  have q1 : win0_3.index t (1 : Fin 3) = 0 := congrFun ht 1
  have q2 : win0_3.index t (2 : Fin 3) = (i 2).val / 256 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 3 ≤ (i 1).val ∧ (i 1).val < win0_3.index t (1 : Fin 3) * 3 + 3; omega
  | ⟨2, _⟩ => show win0_3.index t (2 : Fin 3) * 256 ≤ (i 2).val ∧ (i 2).val < win0_3.index t (2 : Fin 3) * 256 + 256; omega

/-- The result array after the run is the specification of the three argument arrays. -/
theorem final (c : Dev nD) :
    (dats m 0 c).arrAt 3 cfg0.N = G (m ((c : Thread nD τ).loc main_arg1)) (m ((c : Thread nD τ).loc main_arg2)) (m ((c : Thread nD τ).loc main_arg3)) :=
  (dats m 0 c).arrAt_eq_of_cover 3 (G (V m c main_arg1) (V m c main_arg2) (V m c main_arg3)) (fun t _ => flushed_eq m c t) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Corr.Kern

end
-- ==== Proof.RefIsG.lean ====
/-
  The reference, one whole-array operation at a time, read at an index: squared lengths and inner products of embedding
  columns, the score −|a_n|² − (−2)·⟨a_n, b_m⟩ − |b_m|² (the specification's negated squared distance), the row maximum
  folded from −∞, the shifted exponentials, their row sums, the quotient, and the final contraction with the target
  coordinates. Read this way its result is the specification.
-/
import proofs.«131171_j28613072126431_1_alg».proof.Proof.Spec
import proofs.«131171_j28613072126431_1_alg».proof.Proof.Gen.ReferenceIdeal.Read

noncomputable section

namespace Cert.Corr.Ref

open Cert.ReferenceIdeal Cert.ReferenceIdeal.Gen Idealize.ShloMosaic Idealize.ShloMosaic.ValueIdx Cert.Corr
open Cert.ReferenceIdeal.Read

/-- The arrays of embedding columns and of target coordinates, as the reference reads them. -/
abbrev Emb := (⟨S4x256x4096, .f32⟩ : BufTy).Contents (Elt Ideal)
abbrev Pts := (⟨S4x3x4096, .f32⟩ : BufTy).Contents (Elt Ideal)

/-- Column n of batch b of an embedding array. -/
abbrev col (x : Emb) (b : Fin 4) (n : Fin 4096) : Fin 256 → EReal := fun d => x (ix3 b d n)

/-- The sum of squares over the embedding axis of the first array, started from 0, is the squared length of a column. -/
theorem v4_at (x2 : Emb) (b : Fin 4) (n : Fin 4096) :
    val_main_v4 (F := Ideal) x2 (ix2 b n) = sq (col x2 b n) := by
  rw [val_main_v4_apply, val_main_cst_0_apply, Ideal.ofBits_def, Ideal.ofBits_zero_f32, zero_add]
  unfold sq
  refine Finset.sum_congr rfl fun d _ => ?_
  rw [val_main_v3_apply, Ideal.mulf_def]
  have e : idx_main_v4 (ix2 b n) d = ix3 b d n :=
    funext fun a => Fin.ext (by match a with | ⟨0, _⟩ => rfl | ⟨1, _⟩ => rfl | ⟨2, _⟩ => rfl)
  rw [e]

/-- The same for the second array. -/
theorem v7_at (x3 : Emb) (b : Fin 4) (m : Fin 4096) :
    val_main_v7 (F := Ideal) x3 (ix2 b m) = sq (col x3 b m) := by
  rw [val_main_v7_apply, val_main_cst_1_apply, Ideal.ofBits_def, Ideal.ofBits_zero_f32, zero_add]
  unfold sq
  refine Finset.sum_congr rfl fun d _ => ?_
  rw [val_main_v6_apply, Ideal.mulf_def]
  have e : idx_main_v7 (ix2 b m) d = ix3 b d m :=
    funext fun a => Fin.ext (by match a with | ⟨0, _⟩ => rfl | ⟨1, _⟩ => rfl | ⟨2, _⟩ => rfl)
  rw [e]

/-- The contraction over the embedding axis is the inner product of the two columns. -/
theorem v0_at (x2 x3 : Emb) (b : Fin 4) (n m : Fin 4096) :
    val_main_v0 (F := Ideal) x2 x3 (ix3 b n m) = dotp (col x2 b n) (col x3 b m) := by
  rw [val_main_v0_apply]
  unfold dotp
  refine Finset.sum_congr rfl fun d _ => ?_
  have el : lidx_main_v0 (ix3 b n m) d = ix3 b d n :=
    funext fun a => Fin.ext (by match a with | ⟨0, _⟩ => rfl | ⟨1, _⟩ => rfl | ⟨2, _⟩ => rfl)
  have er : ridx_main_v0 (ix3 b n m) d = ix3 b d m :=
    funext fun a => Fin.ext (by match a with | ⟨0, _⟩ => rfl | ⟨1, _⟩ => rfl | ⟨2, _⟩ => rfl)
  rw [el, er]

/-- The reference's score −|a_n|² − (−2)·⟨a_n, b_m⟩ − |b_m|² is the negated squared distance. -/
theorem v13_at (x2 x3 : Emb) (b : Fin 4) (n m : Fin 4096) :
    val_main_v13 (F := Ideal) x2 x3 (ix3 b n m) = negDist (col x2 b n) (col x3 b m) := by
  rw [val_main_v13_apply, val_main_v11_apply, val_main_v10_apply, val_main_v9_apply, val_main_v5_apply,
    val_main_v2_apply, val_main_v1_apply, val_main_cst_apply, val_main_v12_apply, val_main_v8_apply]
  have e5 : idx_main_v5 (idx_main_v10 (ix3 b n m)) = ix2 b n :=
    funext fun a => Fin.ext (by match a with | ⟨0, _⟩ => rfl | ⟨1, _⟩ => rfl)
  have e8 : idx_main_v8 (idx_main_v12 (ix3 b n m)) = ix2 b m :=
    funext fun a => Fin.ext (by match a with | ⟨0, _⟩ => rfl | ⟨1, _⟩ => rfl)
  rw [e5, e8, v4_at, v7_at, v0_at, ← negDist'_eq]
  rfl

/-- Row n of batch b of the score array. -/
abbrev row (x2 x3 : Emb) (b : Fin 4) (n : Fin 4096) : Fin 4096 → EReal :=
  fun m => negDist (col x2 b n) (col x3 b m)

/-- The maximum over the last axis, folded from −∞, at (b, n) is the fold of max over row n. -/
theorem v14_at (x2 x3 : Emb) (b : Fin 4) (n : Fin 4096) :
    val_main_v14 (F := Ideal) x2 x3 (ix2 b n)
      = (Finset.univ : Finset (Fin 4096)).fold max (Ideal.ofBits .f32 0xFF800000#32) (row x2 x3 b n) := by
  unfold val_main_v14
  have h : S4x4096x4096.Reduces [2] S4x4096 := by decide
  rw [Host.reduce_eq_fold_single FloatOps.maximumf _ _ reducesTo_S4x4096x4096_S4x4096_d2 h h_S_ (ix2 b n)]
  have ef : (val_main_v13 (F := Ideal) x2 x3 ∘ h.lift (ix2 b n)) = row x2 x3 b n := by
    refine funext fun (m : Fin 4096) => ?_
    have e : h.lift (ix2 b n) m = ix3 b n m :=
      funext fun a => Fin.ext (by match a with | ⟨0, _⟩ => rfl | ⟨1, _⟩ => rfl | ⟨2, _⟩ => rfl)
    show val_main_v13 (F := Ideal) x2 x3 (h.lift (ix2 b n) m) = _
    rw [e, v13_at]
  rw [ef]
  rfl

/-- The maximum once more against −∞: the row maximum of the specification. -/
theorem v16_at (x2 x3 : Emb) (b : Fin 4) (n : Fin 4096) :
    val_main_v16 (F := Ideal) x2 x3 (ix2 b n) = rowMax (row x2 x3 b n) := by
  rw [val_main_v16_apply, val_main_v15_apply, val_main_cst_3_apply, v14_at]
  rfl

/-- The exponential of the score shifted by its row's maximum. -/
theorem v20_at (x2 x3 : Emb) (b : Fin 4) (n m : Fin 4096) :
    val_main_v20 (F := Ideal) x2 x3 (ix3 b n m) = rowExp (row x2 x3 b n) m := by
  rw [val_main_v20_apply, val_main_v19_apply, val_main_v18_apply, val_main_v17_apply]
  have e : idx_main_v17 (idx_main_v18 (ix3 b n m)) = ix2 b n :=
    funext fun a => Fin.ext (by match a with | ⟨0, _⟩ => rfl | ⟨1, _⟩ => rfl)
  rw [e, v16_at, v13_at]
  rfl

/-- The sum of a row's shifted exponentials, started from 0, is the softmax denominator. -/
theorem v21_at (x2 x3 : Emb) (b : Fin 4) (n : Fin 4096) :
    val_main_v21 (F := Ideal) x2 x3 (ix2 b n) = rowSum (row x2 x3 b n) := by
  rw [val_main_v21_apply, val_main_cst_4_apply, Ideal.ofBits_def, Ideal.ofBits_zero_f32, zero_add]
  unfold rowSum
  refine Finset.sum_congr rfl fun m _ => ?_
  have e : idx_main_v21 (ix2 b n) m = ix3 b n m :=
    funext fun a => Fin.ext (by match a with | ⟨0, _⟩ => rfl | ⟨1, _⟩ => rfl | ⟨2, _⟩ => rfl)
  rw [e, v20_at]

/-- The softmax weight of target point m in row n. -/
theorem v24_at (x2 x3 : Emb) (b : Fin 4) (n m : Fin 4096) :
    val_main_v24 (F := Ideal) x2 x3 (ix3 b n m)
      = Ideal.div (rowExp (row x2 x3 b n) m) (rowSum (row x2 x3 b n)) := by
  rw [val_main_v24_apply, val_main_v23_apply, val_main_v22_apply]
  have e : idx_main_v22 (idx_main_v23 (ix3 b n m)) = ix2 b n :=
    funext fun a => Fin.ext (by match a with | ⟨0, _⟩ => rfl | ⟨1, _⟩ => rfl)
  rw [e, v21_at, v20_at]
  rfl

/-- The reference's result, as a function of the three arrays it reads, is the specification. -/
theorem ref_eq_G (x1 : (⟨S4x3x4096, .f32⟩ : BufTy).Contents (Elt Ideal)) (x2 x3 : (⟨S4x256x4096, .f32⟩ : BufTy).Contents (Elt Ideal)) :
    Cert.ReferenceIdeal.Read.val_main_v25 (F := Ideal) x1 x2 x3 = G x1 x2 x3 := by
  funext i
  obtain ⟨b, c, n, rfl⟩ : ∃ (b : Fin 4) (c : Fin 3) (n : Fin 4096), i = ix3 b c n := ⟨i 0, i 1, i 2, eq_ix3 i⟩
  rw [val_main_v25_apply]
  unfold G softmaxDot
  refine Finset.sum_congr rfl fun m _ => ?_
  have el : lidx_main_v25 (ix3 b c n) m = ix3 b c m :=
    funext fun a => Fin.ext (by match a with | ⟨0, _⟩ => rfl | ⟨1, _⟩ => rfl | ⟨2, _⟩ => rfl)
  have er : ridx_main_v25 (ix3 b c n) m = ix3 b n m :=
    funext fun a => Fin.ext (by match a with | ⟨0, _⟩ => rfl | ⟨1, _⟩ => rfl | ⟨2, _⟩ => rfl)
  rw [el, er, v24_at]

end Cert.Corr.Ref

end
-- ==== Proof.lean ====
/-
  The certificate of the correspondence kernel against its jnp reference.

  Both programs compute, for each batch b, coordinate c and source point n,
      out(b, c, n) = Σ_m tgt(b, c, m) · softmax_m(p(b, n, ·))(m),   p(b, n, m) = 2·⟨a_n, b_m⟩ − |a_n|² − |b_m|²,
  with a_n, b_m the 256-coordinate embedding columns of source point n and target point m (Proof/Spec.lean).
  The kernel computes it block by block (Proof/ScoresValue.lean, Proof/BlockValue.lean: one block's entries;
  Proof/KernelValue.lean: the 64 blocks tile the result); the reference computes it with whole-array operations
  (Proof/RefIsG.lean), spelling p as −|a_n|² − (−2)·⟨a_n, b_m⟩ − |b_m|², the same extended real whatever the inputs.
  The three frames are the generated ones; the idealization rewrote nothing, so `preserves` is trivial.
-/
import proofs.«131171_j28613072126431_1_alg».proof.Defs
import proofs.«131171_j28613072126431_1_alg».proof.Proof.Gen.Kernel
import proofs.«131171_j28613072126431_1_alg».proof.Proof.Gen.Kernel.Skeleton
import proofs.«131171_j28613072126431_1_alg».proof.Proof.Gen.Kernel.Launch
import proofs.«131171_j28613072126431_1_alg».proof.Proof.Gen.Kernel.Points
import proofs.«131171_j28613072126431_1_alg».proof.Proof.Gen.Kernel.Frame
import proofs.«131171_j28613072126431_1_alg».proof.Proof.Gen.KernelIdeal
import proofs.«131171_j28613072126431_1_alg».proof.Proof.Gen.KernelIdeal.Skeleton
import proofs.«131171_j28613072126431_1_alg».proof.Proof.Gen.KernelIdeal.Launch
import proofs.«131171_j28613072126431_1_alg».proof.Proof.Gen.KernelIdeal.Points
import proofs.«131171_j28613072126431_1_alg».proof.Proof.Gen.KernelIdeal.Frame
import proofs.«131171_j28613072126431_1_alg».proof.Proof.Gen.ReferenceIdeal
import proofs.«131171_j28613072126431_1_alg».proof.Proof.Gen.Pre_finite_inputs
import proofs.«131171_j28613072126431_1_alg».proof.Proof.Gen.KernelIdeal.Value
import proofs.«131171_j28613072126431_1_alg».proof.Proof.Gen.ReferenceIdeal.Run
import proofs.«131171_j28613072126431_1_alg».proof.Proof.Gen.ReferenceIdeal.Read
import proofs.«131171_j28613072126431_1_alg».proof.Proof.KernelValue
import proofs.«131171_j28613072126431_1_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- From memories agreeing on the arguments both programs end with the result array at the specification of the
    target coordinates and the two embedding arrays. -/
theorem algebraic : Cert.algebraic_KernelIdeal_ReferenceIdeal := by
  intro m ρ m' ρ' _ hagree
  refine ⟨fun c => Cert.Corr.G (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Corr.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Corr.Ref.ref_eq_G, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
